-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x64 : Shape := ⟨2, ![2000, 64]⟩
abbrev S2000x128 : Shape := ⟨2, ![2000, 128]⟩
abbrev S1700000x128 : Shape := ⟨2, ![1700000, 128]⟩
abbrev S1x128 : Shape := ⟨2, ![1, 128]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 110
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x1, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x1, .f32⟩
  | .hbm, ⟨102, _⟩ => ⟨S1700000x1, .f32⟩
  | .hbm, ⟨103, _⟩ => ⟨S1700000x1, .f32⟩
  | .hbm, ⟨104, _⟩ => ⟨S_, .f32⟩
  | .hbm, ⟨105, _⟩ => ⟨S100000x1, .f32⟩
  | .hbm, ⟨106, _⟩ => ⟨S1700000x1, .i32⟩
  | .hbm, ⟨107, _⟩ => ⟨S100000x1, .f32⟩
  | .hbm, ⟨108, _⟩ => ⟨S1x1, .f32⟩
  | .hbm, ⟨109, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x1, .f32⟩
  | .local _ .vmem, ⟨23, _⟩ => ⟨S2000x1, .f32⟩
  | .local _ .vmem, ⟨24, _⟩ => ⟨S2000x1, .f32⟩
  | .local _ .vmem, ⟨25, _⟩ => ⟨S2000x1, .f32⟩
  | .local _ .vmem, ⟨26, _⟩ => ⟨S2000x1, .f32⟩
  | .local _ .vmem, ⟨27, _⟩ => ⟨S1x1, .f32⟩
  | .local _ .vmem, ⟨28, _⟩ => ⟨S2000x1, .f32⟩
  | .local _ .vmem, ⟨29, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S2000x1_S2000x1_0_0 : ∀ a, (![0, 0] : Fin 2 → Nat) a + S2000x1.size a ≤ S2000x1.size a
  h_S2000x1 : 0 < S2000x1.numel
  bcast_S_S100000x1 : S_.BroadcastsInDim S100000x1 (![] : Fin 0 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x128_S2000x128_1_0_0_1_n_n_wf : DotDims.WF S2000x64 S64x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S100000x1.size a
  hwx5_0 : ∀ i : grid5.Coords, EltTy.bits .f32 = 32 ∨ (Rect.block (s := S100000x1) S2000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S2000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x1, .f32⟩
  | 110 => ⟨S1700000x1, .f32⟩
  | 111 => ⟨S1700000x1, .f32⟩
  | 112 => ⟨S_, .f32⟩
  | 113 => ⟨S100000x1, .f32⟩
  | 114 => ⟨S1700000x1, .i32⟩
  | 115 => ⟨S100000x1, .f32⟩
  | 116 => ⟨S1x1, .f32⟩
  | 117 => ⟨S100000x1, .f32⟩
  | 118 => ⟨S100000x1, .f32⟩
  | 119 => ⟨S100000x1, .f32⟩
  | 120 => ⟨S100000x1, .f32⟩
  | 121 => ⟨S_, .f32⟩
  | 122 => ⟨S100000x1, .f32⟩
  | 123 => ⟨S100000x1, .f32⟩
  | 124 => ⟨S_, .f32⟩
  | 125 => ⟨S100000x1, .f32⟩
  | 126 => ⟨S100000x1, .f32⟩
  | 127 => ⟨S_, .f32⟩
  | _ => ⟨S100000x64, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel program's run with its result named.

  The program is six kernel launches among stretches of host operations. Its run from any memory ends with the
  nine argument arrays as launched and with the result array at what the last boundary of the run holds there:
  the contents after the sixth launch has written its blocks back.
-/
import proofs.«150902_j25082609009166_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and every argument array ends as launched. -/
theorem run_main : θ_run defs (onTc (τ := τ) (main (F := F))) ⟨m, fun _ => 0, ρ⟩ (fun r => ∀ c : Dev nD,
      r.2.mem ((c.tc : Thread nD τ).loc main_v80) = W12 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v80 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Hand

end
-- ==== Proof.HostGlue.lean ====
/-
  The host operations between the kernel launches, read against the reference's stages.

  Both programs compute the same graph quantities on the host from the edge list and the edge weights: the edge
  rows and columns with one self loop per node appended, the weights with a one per self loop appended, the
  weighted in-degree of every node, its inverse square root where positive, and from these the normalized weight
  of every edge. Each layer then gathers the rows of the layer's linear image along the edge rows, scales each by
  its edge's normalized weight and adds them up per edge column. The kernel program writes these operations in the
  same order and with the same constants as the reference, so from any contents of the buffers they read, the
  buffers they write hold the reference's stage functions of those contents.
  A buffer no operation of a stretch writes keeps its contents through the stretch.
-/
import proofs.«150902_j25082609009166_1_alg».proof.Proof.Gen.KernelIdeal.Launch
import proofs.«150902_j25082609009166_1_alg».proof.Proof.Gen.ReferenceIdeal.Read
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo

variable (W : Valuation τ sig (Elt Ideal))

/-! ## The first stretch: the edge lists with self loops, the weights with ones, the degrees -/

set_option maxHeartbeats 4000000 in
/-- The edge rows with the self loops appended. -/
theorem a_v5 : StableHlo.after hostOps0 W (Proc.devRef .tc main_v5) = Cert.ReferenceIdeal.Read.val_main_v5 (F := Ideal) (W (Proc.devRef .tc main_arg1)) := by
  after_results_simp <;> rfl

set_option maxHeartbeats 4000000 in
/-- The edge columns with the self loops appended. -/
theorem a_v6 : StableHlo.after hostOps0 W (Proc.devRef .tc main_v6) = Cert.ReferenceIdeal.Read.val_main_v6 (F := Ideal) (W (Proc.devRef .tc main_arg1)) := by
  after_results_simp <;> rfl

set_option maxHeartbeats 4000000 in
/-- The edge weights with a one per self loop appended. -/
theorem a_v8 : StableHlo.after hostOps0 W (Proc.devRef .tc main_v8) = Cert.ReferenceIdeal.Read.val_main_v8 (F := Ideal) (W (Proc.devRef .tc main_arg2)) := by
  after_results_simp <;> rfl

set_option maxHeartbeats 4000000 in
/-- Where the weighted in-degree is positive. -/
theorem a_v13 : StableHlo.after hostOps0 W (Proc.devRef .tc main_v13) = Cert.ReferenceIdeal.Read.val_main_v13 (F := Ideal) (W (Proc.devRef .tc main_arg1)) (W (Proc.devRef .tc main_arg2)) := by
  after_results_simp <;> rfl

set_option maxHeartbeats 4000000 in
/-- The inverse square root of the larger of the weighted in-degree and the floor constant. -/
theorem a_v16 : StableHlo.after hostOps0 W (Proc.devRef .tc main_v16) = Cert.ReferenceIdeal.Read.val_main_v16 (F := Ideal) (W (Proc.devRef .tc main_arg1)) (W (Proc.devRef .tc main_arg2)) := by
  after_results_simp <;> rfl

set_option maxHeartbeats 4000000 in
/-- The zero the inverse square root is replaced by where the degree is not positive. -/
theorem a_cst3 : StableHlo.after hostOps0 W (Proc.devRef .tc main_cst_3) = Cert.ReferenceIdeal.Read.val_main_cst_3 (F := Ideal)  := by
  after_results_simp <;> rfl

theorem a_keep_main_arg0 : StableHlo.after hostOps0 W (Proc.devRef .tc main_arg0) = W (Proc.devRef .tc main_arg0) :=
  StableHlo.after_of_forall_not_mem (b := (Proc.devRef .tc main_arg0)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem a_keep_main_arg3 : StableHlo.after hostOps0 W (Proc.devRef .tc main_arg3) = W (Proc.devRef .tc main_arg3) :=
  StableHlo.after_of_forall_not_mem (b := (Proc.devRef .tc main_arg3)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem a_keep_main_arg4 : StableHlo.after hostOps0 W (Proc.devRef .tc main_arg4) = W (Proc.devRef .tc main_arg4) :=
  StableHlo.after_of_forall_not_mem (b := (Proc.devRef .tc main_arg4)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem a_keep_main_arg5 : StableHlo.after hostOps0 W (Proc.devRef .tc main_arg5) = W (Proc.devRef .tc main_arg5) :=
  StableHlo.after_of_forall_not_mem (b := (Proc.devRef .tc main_arg5)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem a_keep_main_arg6 : StableHlo.after hostOps0 W (Proc.devRef .tc main_arg6) = W (Proc.devRef .tc main_arg6) :=
  StableHlo.after_of_forall_not_mem (b := (Proc.devRef .tc main_arg6)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem a_keep_main_arg7 : StableHlo.after hostOps0 W (Proc.devRef .tc main_arg7) = W (Proc.devRef .tc main_arg7) :=
  StableHlo.after_of_forall_not_mem (b := (Proc.devRef .tc main_arg7)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem a_keep_main_arg8 : StableHlo.after hostOps0 W (Proc.devRef .tc main_arg8) = W (Proc.devRef .tc main_arg8) :=
  StableHlo.after_of_forall_not_mem (b := (Proc.devRef .tc main_arg8)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The second stretch: the inverse square root where the degree is positive, zero elsewhere -/

/-- The selection, from whatever the three buffers it reads hold. -/
theorem b_v17 : StableHlo.after hostOps0_1 W (Proc.devRef .tc main_v17)
    = select (W (Proc.devRef .tc main_v13)) (W (Proc.devRef .tc main_v16)) (broadcastInDim S100000 ![] bcast_S_S100000 (id (W (Proc.devRef .tc main_cst_3)))) := by
  after_results_simp
  rfl

theorem b_keep_main_v5 : StableHlo.after hostOps0_1 W (Proc.devRef .tc main_v5) = W (Proc.devRef .tc main_v5) :=
  StableHlo.after_of_forall_not_mem (b := (Proc.devRef .tc main_v5)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_v6 : StableHlo.after hostOps0_1 W (Proc.devRef .tc main_v6) = W (Proc.devRef .tc main_v6) :=
  StableHlo.after_of_forall_not_mem (b := (Proc.devRef .tc main_v6)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_v8 : StableHlo.after hostOps0_1 W (Proc.devRef .tc main_v8) = W (Proc.devRef .tc main_v8) :=
  StableHlo.after_of_forall_not_mem (b := (Proc.devRef .tc main_v8)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg0 : StableHlo.after hostOps0_1 W (Proc.devRef .tc main_arg0) = W (Proc.devRef .tc main_arg0) :=
  StableHlo.after_of_forall_not_mem (b := (Proc.devRef .tc main_arg0)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg3 : StableHlo.after hostOps0_1 W (Proc.devRef .tc main_arg3) = W (Proc.devRef .tc main_arg3) :=
  StableHlo.after_of_forall_not_mem (b := (Proc.devRef .tc main_arg3)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg4 : StableHlo.after hostOps0_1 W (Proc.devRef .tc main_arg4) = W (Proc.devRef .tc main_arg4) :=
  StableHlo.after_of_forall_not_mem (b := (Proc.devRef .tc main_arg4)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg5 : StableHlo.after hostOps0_1 W (Proc.devRef .tc main_arg5) = W (Proc.devRef .tc main_arg5) :=
  StableHlo.after_of_forall_not_mem (b := (Proc.devRef .tc main_arg5)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg6 : StableHlo.after hostOps0_1 W (Proc.devRef .tc main_arg6) = W (Proc.devRef .tc main_arg6) :=
  StableHlo.after_of_forall_not_mem (b := (Proc.devRef .tc main_arg6)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg7 : StableHlo.after hostOps0_1 W (Proc.devRef .tc main_arg7) = W (Proc.devRef .tc main_arg7) :=
  StableHlo.after_of_forall_not_mem (b := (Proc.devRef .tc main_arg7)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem b_keep_main_arg8 : StableHlo.after hostOps0_1 W (Proc.devRef .tc main_arg8) = W (Proc.devRef .tc main_arg8) :=
  StableHlo.after_of_forall_not_mem (b := (Proc.devRef .tc main_arg8)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The third stretch: the normalized weight of every edge -/

set_option maxHeartbeats 4000000 in
/-- The normalized edge weights, when the buffers the stretch reads hold the reference's stages. -/
theorem c_v33 (x1 : (⟨Cert.ReferenceIdeal.S2x1600000, .i32⟩ : BufTy).Contents (Elt Ideal)) (x2 : (⟨Cert.ReferenceIdeal.S1600000, .f32⟩ : BufTy).Contents (Elt Ideal)) (h_v17 : W (Proc.devRef .tc main_v17) = Cert.ReferenceIdeal.Read.val_main_v17 (F := Ideal) x1 x2) (h_v5 : W (Proc.devRef .tc main_v5) = Cert.ReferenceIdeal.Read.val_main_v5 (F := Ideal) x1) (h_v6 : W (Proc.devRef .tc main_v6) = Cert.ReferenceIdeal.Read.val_main_v6 (F := Ideal) x1) (h_v8 : W (Proc.devRef .tc main_v8) = Cert.ReferenceIdeal.Read.val_main_v8 (F := Ideal) x2) :
    StableHlo.after hostOps0_2 W (Proc.devRef .tc main_v33) = Cert.ReferenceIdeal.Read.val_main_v33 (F := Ideal) x1 x2 := by
  after_results_simp
  rw [h_v17, h_v5, h_v6, h_v8]
  rfl

theorem c_keep_main_v5 : StableHlo.after hostOps0_2 W (Proc.devRef .tc main_v5) = W (Proc.devRef .tc main_v5) :=
  StableHlo.after_of_forall_not_mem (b := (Proc.devRef .tc main_v5)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_v6 : StableHlo.after hostOps0_2 W (Proc.devRef .tc main_v6) = W (Proc.devRef .tc main_v6) :=
  StableHlo.after_of_forall_not_mem (b := (Proc.devRef .tc main_v6)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg0 : StableHlo.after hostOps0_2 W (Proc.devRef .tc main_arg0) = W (Proc.devRef .tc main_arg0) :=
  StableHlo.after_of_forall_not_mem (b := (Proc.devRef .tc main_arg0)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg3 : StableHlo.after hostOps0_2 W (Proc.devRef .tc main_arg3) = W (Proc.devRef .tc main_arg3) :=
  StableHlo.after_of_forall_not_mem (b := (Proc.devRef .tc main_arg3)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg4 : StableHlo.after hostOps0_2 W (Proc.devRef .tc main_arg4) = W (Proc.devRef .tc main_arg4) :=
  StableHlo.after_of_forall_not_mem (b := (Proc.devRef .tc main_arg4)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg5 : StableHlo.after hostOps0_2 W (Proc.devRef .tc main_arg5) = W (Proc.devRef .tc main_arg5) :=
  StableHlo.after_of_forall_not_mem (b := (Proc.devRef .tc main_arg5)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg6 : StableHlo.after hostOps0_2 W (Proc.devRef .tc main_arg6) = W (Proc.devRef .tc main_arg6) :=
  StableHlo.after_of_forall_not_mem (b := (Proc.devRef .tc main_arg6)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg7 : StableHlo.after hostOps0_2 W (Proc.devRef .tc main_arg7) = W (Proc.devRef .tc main_arg7) :=
  StableHlo.after_of_forall_not_mem (b := (Proc.devRef .tc main_arg7)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem c_keep_main_arg8 : StableHlo.after hostOps0_2 W (Proc.devRef .tc main_arg8) = W (Proc.devRef .tc main_arg8) :=
  StableHlo.after_of_forall_not_mem (b := (Proc.devRef .tc main_arg8)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The aggregation after the first product, and the first bias given its leading unit axis -/

set_option maxHeartbeats 4000000 in
/-- The first layer's aggregate, when the buffers the stretch reads hold the reference's stages. -/
theorem d_v47 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (h_v34 : W (Proc.devRef .tc main_v34) = Cert.ReferenceIdeal.Read.val_main_v34 (F := Ideal) x0 x3) (h_v5 : W (Proc.devRef .tc main_v5) = Cert.ReferenceIdeal.Read.val_main_v5 (F := Ideal) x1) (h_v6 : W (Proc.devRef .tc main_v6) = Cert.ReferenceIdeal.Read.val_main_v6 (F := Ideal) x1) (h_v33 : W (Proc.devRef .tc main_v33) = Cert.ReferenceIdeal.Read.val_main_v33 (F := Ideal) x1 x2) :
    StableHlo.after hostOps1 W (Proc.devRef .tc main_v47) = Cert.ReferenceIdeal.Read.val_main_v47 (F := Ideal) x0 x1 x2 x3 := by
  after_results_simp
  rw [h_v34, h_v5, h_v6, h_v33]
  rfl

/-- The first bias with a leading unit axis. -/
theorem d_v48 : StableHlo.after hostOps1 W (Proc.devRef .tc main_v48) = shapeCast S1x128 (W (Proc.devRef .tc main_arg4)) shapeCasts_S128_S1x128 := by
  after_results_simp
  rfl

theorem d_keep_main_v5 : StableHlo.after hostOps1 W (Proc.devRef .tc main_v5) = W (Proc.devRef .tc main_v5) :=
  StableHlo.after_of_forall_not_mem (b := (Proc.devRef .tc main_v5)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem d_keep_main_v6 : StableHlo.after hostOps1 W (Proc.devRef .tc main_v6) = W (Proc.devRef .tc main_v6) :=
  StableHlo.after_of_forall_not_mem (b := (Proc.devRef .tc main_v6)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem d_keep_main_v33 : StableHlo.after hostOps1 W (Proc.devRef .tc main_v33) = W (Proc.devRef .tc main_v33) :=
  StableHlo.after_of_forall_not_mem (b := (Proc.devRef .tc main_v33)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem d_keep_main_arg5 : StableHlo.after hostOps1 W (Proc.devRef .tc main_arg5) = W (Proc.devRef .tc main_arg5) :=
  StableHlo.after_of_forall_not_mem (b := (Proc.devRef .tc main_arg5)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem d_keep_main_arg6 : StableHlo.after hostOps1 W (Proc.devRef .tc main_arg6) = W (Proc.devRef .tc main_arg6) :=
  StableHlo.after_of_forall_not_mem (b := (Proc.devRef .tc main_arg6)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem d_keep_main_arg7 : StableHlo.after hostOps1 W (Proc.devRef .tc main_arg7) = W (Proc.devRef .tc main_arg7) :=
  StableHlo.after_of_forall_not_mem (b := (Proc.devRef .tc main_arg7)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem d_keep_main_arg8 : StableHlo.after hostOps1 W (Proc.devRef .tc main_arg8) = W (Proc.devRef .tc main_arg8) :=
  StableHlo.after_of_forall_not_mem (b := (Proc.devRef .tc main_arg8)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The aggregation after the second product, and the second bias given its leading unit axis -/

set_option maxHeartbeats 4000000 in
/-- The second layer's aggregate, when the buffers the stretch reads hold the reference's stages. -/
theorem e_v63 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (h_v50 : W (Proc.devRef .tc main_v50) = Cert.ReferenceIdeal.Read.val_main_v52 (F := Ideal) x0 x1 x2 x3 x4 x5) (h_v5 : W (Proc.devRef .tc main_v5) = Cert.ReferenceIdeal.Read.val_main_v5 (F := Ideal) x1) (h_v6 : W (Proc.devRef .tc main_v6) = Cert.ReferenceIdeal.Read.val_main_v6 (F := Ideal) x1) (h_v33 : W (Proc.devRef .tc main_v33) = Cert.ReferenceIdeal.Read.val_main_v33 (F := Ideal) x1 x2) :
    StableHlo.after hostOps3 W (Proc.devRef .tc main_v63) = Cert.ReferenceIdeal.Read.val_main_v65 (F := Ideal) x0 x1 x2 x3 x4 x5 := by
  after_results_simp
  rw [h_v50, h_v5, h_v6, h_v33]
  rfl

/-- The second bias with a leading unit axis. -/
theorem e_v64 : StableHlo.after hostOps3 W (Proc.devRef .tc main_v64) = shapeCast S1x128 (W (Proc.devRef .tc main_arg6)) shapeCasts_S128_S1x128 := by
  after_results_simp
  rfl

theorem e_keep_main_v5 : StableHlo.after hostOps3 W (Proc.devRef .tc main_v5) = W (Proc.devRef .tc main_v5) :=
  StableHlo.after_of_forall_not_mem (b := (Proc.devRef .tc main_v5)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem e_keep_main_v6 : StableHlo.after hostOps3 W (Proc.devRef .tc main_v6) = W (Proc.devRef .tc main_v6) :=
  StableHlo.after_of_forall_not_mem (b := (Proc.devRef .tc main_v6)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem e_keep_main_v33 : StableHlo.after hostOps3 W (Proc.devRef .tc main_v33) = W (Proc.devRef .tc main_v33) :=
  StableHlo.after_of_forall_not_mem (b := (Proc.devRef .tc main_v33)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem e_keep_main_arg7 : StableHlo.after hostOps3 W (Proc.devRef .tc main_arg7) = W (Proc.devRef .tc main_arg7) :=
  StableHlo.after_of_forall_not_mem (b := (Proc.devRef .tc main_arg7)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem e_keep_main_arg8 : StableHlo.after hostOps3 W (Proc.devRef .tc main_arg8) = W (Proc.devRef .tc main_arg8) :=
  StableHlo.after_of_forall_not_mem (b := (Proc.devRef .tc main_arg8)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The aggregation after the third product, and the third bias given its leading unit axis -/

set_option maxHeartbeats 4000000 in
/-- The third layer's aggregate, when the buffers the stretch reads hold the reference's stages. -/
theorem f_v78 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x1, .f32⟩ : BufTy).Contents (Elt Ideal)) (h_v66 : W (Proc.devRef .tc main_v66) = Cert.ReferenceIdeal.Read.val_main_v70 (F := Ideal) x0 x1 x2 x3 x4 x5 x6 x7) (h_v5 : W (Proc.devRef .tc main_v5) = Cert.ReferenceIdeal.Read.val_main_v5 (F := Ideal) x1) (h_v6 : W (Proc.devRef .tc main_v6) = Cert.ReferenceIdeal.Read.val_main_v6 (F := Ideal) x1) (h_v33 : W (Proc.devRef .tc main_v33) = Cert.ReferenceIdeal.Read.val_main_v33 (F := Ideal) x1 x2) :
    StableHlo.after hostOps5 W (Proc.devRef .tc main_v78) = Cert.ReferenceIdeal.Read.val_main_v82 (F := Ideal) x0 x1 x2 x3 x4 x5 x6 x7 := by
  after_results_simp
  rw [h_v66, h_v5, h_v6, h_v33]
  rfl

/-- The third bias with a leading unit axis. -/
theorem f_v79 : StableHlo.after hostOps5 W (Proc.devRef .tc main_v79) = shapeCast S1x1 (W (Proc.devRef .tc main_arg8)) shapeCasts_S1_S1x1 := by
  after_results_simp
  rfl

end Cert.KernelIdeal.HostGlue

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Mat0.lean ====
/-
  The first launch: a row-blocked matrix product.

  The launch walks fifty row blocks of 2000 rows. At block t it multiplies rows 2000 t … 2000 t + 1999 of the
  100000 by 64 left array (the node features) with the whole 64 by 128 right array into a zero accumulator and writes
  the 2000 by 128 product to the same rows of the output. So after the launch the output array is the whole
  product: entry (r, q) is the sum over k of left (r, k) · right (k, q).
-/
import proofs.«150902_j25082609009166_1_alg».proof.Proof.Gen.KernelIdeal.Frame
import proofs.«150902_j25082609009166_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Mat0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of a 100000 by 64 array with a 64 by 128 array, entry by entry. -/
def prod (x : S100000x64.Idx → EReal) (w : S64x128.Idx → EReal) : S100000x128.Idx → EReal :=
  fun i => ∑ k : Fin 64, x (ix2 (⟨(i 0).val, (i 0).isLt⟩ : Fin 100000) k) * w (ix2 k (⟨(i 1).val, (i 1).isLt⟩ : Fin 128))

/-- One block's product at entry (p, q): the sum over the contracted axis. -/
theorem block_entry (x0 : FVec Ideal S2000x64 .f32) (x1 : FVec Ideal S64x128 .f32) (p : Fin 2000) (q : Fin 128) :
    k0_pay1 (F := Ideal) x0 x1 (ix2 p q) = ∑ k : Fin 64, x0 (ix2 p k) * x1 (ix2 k q) := by
  unfold k0_pay1
  exact Cert.LibMatmul.matmul_zero_ix2 dot_S2000x64_S64x128_S2000x128_1_0_0_1_n_n rfl rfl
    (fun i q => by
      unfold DotDims.lhsIdx
      rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
      rfl)
    (fun i q => dot_S2000x64_S64x128_S2000x128_1_0_0_1_n_n.lhsIdx_val_of_single rfl i q)
    (fun i q => dot_S2000x64_S64x128_S2000x128_1_0_0_1_n_n.rhsIdx_val_of_single rfl i q)
    (fun i q => by
      unfold DotDims.rhsIdx
      rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
      rfl)
    none x0 x1 p q

/-- Where each window's block sits at grid point t: the left and output blocks at row block t, the right array whole. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product of the two input arrays. -/
theorem written_block (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x64) zero_offsets, View.ld_unit_zero (S := S64x128) zero_offsets]
  obtain ⟨e0, e1, e2, e3, e4, e5⟩ := block_positions t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = prod (V c main_arg0) (V c main_arg3) (((cfg0.win 2).blk t).view.emb (ix2 p q))
  refine (block_entry _ _ p q).trans ?_
  unfold prod
  refine Finset.sum_congr rfl fun k _ => ?_
  have h0 : (iblk0 V c 0 t : S2000x64.Idx → EReal) (ix2 p k)
      = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * k.val = k.val; omega
  have h1 : (iblk0 V c 1 t : S64x128.Idx → EReal) (ix2 k q)
      = V c main_arg3 (ix2 k (⟨((((cfg0.win 2).blk t).view.emb (ix2 p q)) 1).val, ((((cfg0.win 2).blk t).view.emb (ix2 p q)) 1).isLt⟩ : Fin 128)) := by
    show V c main_arg3 (((cfg0.win 1).blk t).view.emb (ix2 k q)) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  rw [h0, h1]

/-- An index of the output array lies in grid point t's block iff its row is among rows 2000 t … 2000 t + 1999. -/
theorem in_block_iff (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v34).slice (win0_2.rect t)).set ↔ _
  rw [View.set_slice_whole, Rect.mem_set_unit]
  exact Iff.rfl

/-- Every row of the output lies in the block of the grid point its row block names. -/
theorem rows_covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  rw [in_block_iff]
  obtain ⟨e0, e1, e2, e3, e4, e5⟩ := block_positions ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- After the launch the output array holds the whole product of the two input arrays as the launch found them. -/
theorem after_launch (c : Dev nD) : (dat0 V c).arrAt 2 cfg0.N = prod (V c main_arg0) (V c main_arg3) :=
  (dat0 V c).arrAt_eq_of_cover 2 (prod (V c main_arg0) (V c main_arg3)) (fun t _ => written_block V c t) rows_covered

end Cert.KernelIdeal.Mat0

end
-- ==== Proof.Mat2.lean ====
/-
  The third launch: a row-blocked matrix product.

  The launch walks fifty row blocks of 2000 rows. At block t it multiplies rows 2000 t … 2000 t + 1999 of the
  100000 by 128 left array (the first layer's activations) with the whole 128 by 128 right array into a zero accumulator and writes
  the 2000 by 128 product to the same rows of the output. So after the launch the output array is the whole
  product: entry (r, q) is the sum over k of left (r, k) · right (k, q).
-/
import proofs.«150902_j25082609009166_1_alg».proof.Proof.Gen.KernelIdeal.Frame
import proofs.«150902_j25082609009166_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Mat2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of a 100000 by 128 array with a 128 by 128 array, entry by entry. -/
def prod (x : S100000x128.Idx → EReal) (w : S128x128.Idx → EReal) : S100000x128.Idx → EReal :=
  fun i => ∑ k : Fin 128, x (ix2 (⟨(i 0).val, (i 0).isLt⟩ : Fin 100000) k) * w (ix2 k (⟨(i 1).val, (i 1).isLt⟩ : Fin 128))

/-- One block's product at entry (p, q): the sum over the contracted axis. -/
theorem block_entry (x0 : FVec Ideal S2000x128 .f32) (x1 : FVec Ideal S128x128 .f32) (p : Fin 2000) (q : Fin 128) :
    k2_pay1 (F := Ideal) x0 x1 (ix2 p q) = ∑ k : Fin 128, x0 (ix2 p k) * x1 (ix2 k q) := by
  unfold k2_pay1
  rw [shapeCast_self]
  exact Cert.LibMatmul.matmul_zero_ix2 dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    none x0 x1 p q

/-- Where each window's block sits at grid point t: the left and output blocks at row block t, the right array whole. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the whole product of the two input arrays. -/
theorem written_block (c : Dev nD) (t : Fin cfg2.N) :
    (dat2 V c).flushed 2 t = ((cfg2.win 2).blk t).view.read (Elt Ideal) (prod (V c main_v49) (V c main_arg5)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  obtain ⟨e0, e1, e2, e3, e4, e5⟩ := block_positions t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q)
    = prod (V c main_v49) (V c main_arg5) (((cfg2.win 2).blk t).view.emb (ix2 p q))
  refine (block_entry _ _ p q).trans ?_
  unfold prod
  refine Finset.sum_congr rfl fun k _ => ?_
  have h0 : (iblk2 V c 0 t : S2000x128.Idx → EReal) (ix2 p k)
      = V c main_v49 (ix2 (⟨((((cfg2.win 2).blk t).view.emb (ix2 p q)) 0).val, ((((cfg2.win 2).blk t).view.emb (ix2 p q)) 0).isLt⟩ : Fin 100000) k) := by
    show V c main_v49 (((cfg2.win 0).blk t).view.emb (ix2 p k)) = _
    refine congrArg (V c main_v49) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : (iblk2 V c 1 t : S128x128.Idx → EReal) (ix2 k q)
      = V c main_arg5 (ix2 k (⟨((((cfg2.win 2).blk t).view.emb (ix2 p q)) 1).val, ((((cfg2.win 2).blk t).view.emb (ix2 p q)) 1).isLt⟩ : Fin 128)) := by
    show V c main_arg5 (((cfg2.win 1).blk t).view.emb (ix2 k q)) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]

/-- An index of the output array lies in grid point t's block iff its row is among rows 2000 t … 2000 t + 1999. -/
theorem in_block_iff (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v50).slice (win2_2.rect t)).set ↔ _
  rw [View.set_slice_whole, Rect.mem_set_unit]
  exact Iff.rfl

/-- Every row of the output lies in the block of the grid point its row block names. -/
theorem rows_covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_2 _, ?_⟩
  rw [in_block_iff]
  obtain ⟨e0, e1, e2, e3, e4, e5⟩ := block_positions ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [e5]; omega

/-- After the launch the output array holds the whole product of the two input arrays as the launch found them. -/
theorem after_launch (c : Dev nD) : (dat2 V c).arrAt 2 cfg2.N = prod (V c main_v49) (V c main_arg5) :=
  (dat2 V c).arrAt_eq_of_cover 2 (prod (V c main_v49) (V c main_arg5)) (fun t _ => written_block V c t) rows_covered

end Cert.KernelIdeal.Mat2

end
-- ==== Proof.Mat4.lean ====
/-
  The fifth launch: a row-blocked matrix product.

  The launch walks fifty row blocks of 2000 rows. At block t it multiplies rows 2000 t … 2000 t + 1999 of the
  100000 by 128 left array (the second layer's activations) with the whole 128 by 1 right array into a zero accumulator and writes
  the 2000 by 1 product to the same rows of the output. So after the launch the output array is the whole
  product: entry (r, q) is the sum over k of left (r, k) · right (k, q).
-/
import proofs.«150902_j25082609009166_1_alg».proof.Proof.Gen.KernelIdeal.Frame
import proofs.«150902_j25082609009166_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Mat4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of a 100000 by 128 array with a 128 by 1 array, entry by entry. -/
def prod (x : S100000x128.Idx → EReal) (w : S128x1.Idx → EReal) : S100000x1.Idx → EReal :=
  fun i => ∑ k : Fin 128, x (ix2 (⟨(i 0).val, (i 0).isLt⟩ : Fin 100000) k) * w (ix2 k (⟨(i 1).val, (i 1).isLt⟩ : Fin 1))

/-- One block's product at entry (p, q): the sum over the contracted axis. -/
theorem block_entry (x0 : FVec Ideal S2000x128 .f32) (x1 : FVec Ideal S128x1 .f32) (p : Fin 2000) (q : Fin 1) :
    k4_pay1 (F := Ideal) x0 x1 (ix2 p q) = ∑ k : Fin 128, x0 (ix2 p k) * x1 (ix2 k q) := by
  unfold k4_pay1
  rw [shapeCast_self]
  exact Cert.LibMatmul.matmul_zero_ix2 dot_S2000x128_S128x1_S2000x1_1_0_0_1_n_n rfl rfl
    (fun i q => by
      unfold DotDims.lhsIdx
      rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
      rfl)
    (fun i q => dot_S2000x128_S128x1_S2000x1_1_0_0_1_n_n.lhsIdx_val_of_single rfl i q)
    (fun i q => dot_S2000x128_S128x1_S2000x1_1_0_0_1_n_n.rhsIdx_val_of_single rfl i q)
    (fun i q => by
      unfold DotDims.rhsIdx
      rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
      rfl)
    none x0 x1 p q

/-- Where each window's block sits at grid point t: the left and output blocks at row block t, the right array whole. -/
theorem block_positions : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the whole product of the two input arrays. -/
theorem written_block (c : Dev nD) (t : Fin cfg4.N) :
    (dat4 V c).flushed 2 t = ((cfg4.win 2).blk t).view.read (Elt Ideal) (prod (V c main_v65) (V c main_arg7)) := by
  show (cfg4.win 2).cut (grid4.coords t) ((dat4 V c).after 2 t) = _
  rw [after4_2]
  unfold out4_2
  rw [View.canon_unit_zero zero_offsets]
  simp only [View.ld_unit_zero (S := S2000x128) zero_offsets, View.ld_unit_zero (S := S128x1) zero_offsets]
  obtain ⟨e0, e1, e2, e3, e4, e5⟩ := block_positions t
  funext j
  obtain ⟨p, q, rfl⟩ : ∃ (p : Fin 2000) (q : Fin 1), j = ix2 p q := ⟨j 0, j 1, eq_ix2 j⟩
  show k4_pay1 (F := Ideal) (iblk4 V c 0 t) (iblk4 V c 1 t) (ix2 p q)
    = prod (V c main_v65) (V c main_arg7) (((cfg4.win 2).blk t).view.emb (ix2 p q))
  refine (block_entry _ _ p q).trans ?_
  unfold prod
  refine Finset.sum_congr rfl fun k _ => ?_
  have h0 : (iblk4 V c 0 t : S2000x128.Idx → EReal) (ix2 p k)
      = V c main_v65 (ix2 (⟨((((cfg4.win 2).blk t).view.emb (ix2 p q)) 0).val, ((((cfg4.win 2).blk t).view.emb (ix2 p q)) 0).isLt⟩ : Fin 100000) k) := by
    show V c main_v65 (((cfg4.win 0).blk t).view.emb (ix2 p k)) = _
    refine congrArg (V c main_v65) (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  have h1 : (iblk4 V c 1 t : S128x1.Idx → EReal) (ix2 k q)
      = V c main_arg7 (ix2 k (⟨((((cfg4.win 2).blk t).view.emb (ix2 p q)) 1).val, ((((cfg4.win 2).blk t).view.emb (ix2 p q)) 1).isLt⟩ : Fin 1)) := by
    show V c main_arg7 (((cfg4.win 1).blk t).view.emb (ix2 k q)) = _
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 1 + 1 * q.val = win4_2.index t (1 : Fin 2) * 1 + 1 * q.val; omega
  rw [h0, h1]

/-- An index of the output array lies in grid point t's block iff its row is among rows 2000 t … 2000 t + 1999. -/
theorem in_block_iff (t : Fin cfg4.N) (i : S100000x1.Idx) :
    i ∈ ((cfg4.win 2).blk t).view.set ↔ ∀ a : Fin 2, win4_2.index t a * S2000x1.size a ≤ (i a).val ∧ (i a).val < win4_2.index t a * S2000x1.size a + S2000x1.size a := by
  show i ∈ ((View.whole main_v66).slice (win4_2.rect t)).set ↔ _
  rw [View.set_slice_whole, Rect.mem_set_unit]
  exact Iff.rfl

/-- Every row of the output lies in the block of the grid point its row block names. -/
theorem rows_covered (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 50 := N_4
  refine ⟨⟨(i 0).val / 2000, by rw [hN]; omega⟩, flush4_2 _, ?_⟩
  rw [in_block_iff]
  obtain ⟨e0, e1, e2, e3, e4, e5⟩ := block_positions ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e4]; show (i 0).val / 2000 * 2000 ≤ (i 0).val ∧ (i 0).val < (i 0).val / 2000 * 2000 + 2000; omega
  | ⟨1, _⟩ => show win4_2.index _ (1 : Fin 2) * 1 ≤ (i 1).val ∧ (i 1).val < win4_2.index _ (1 : Fin 2) * 1 + 1; rw [e5]; omega

/-- After the launch the output array holds the whole product of the two input arrays as the launch found them. -/
theorem after_launch (c : Dev nD) : (dat4 V c).arrAt 2 cfg4.N = prod (V c main_v65) (V c main_arg7) :=
  (dat4 V c).arrAt_eq_of_cover 2 (prod (V c main_v65) (V c main_arg7)) (fun t _ => written_block V c t) rows_covered

end Cert.KernelIdeal.Mat4

end
-- ==== Proof.Act1.lean ====
/-
  The second launch: a bias row added to every row, then an activation, row block by row block.

  The launch walks fifty row blocks of 2000 rows. At block t it reads rows 2000 t … 2000 t + 1999 of the
  100000 by 128 input array and the one 1 by 128 bias row, adds the bias row to each row, applies the maximum with zero
  entry by entry, and writes the block to the same rows of the output. So after the launch every entry (r, q) of the
  output is that function of input (r, q) and bias (0, q).
-/
import proofs.«150902_j25082609009166_1_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Act1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row added to every row, then the larger of that and zero, entry by entry. -/
def biasRelu (a : S100000x128.Idx → EReal) (b : S1x128.Idx → EReal) : S100000x128.Idx → EReal :=
  fun i => max (a i + b (ix2 (0 : Fin 1) (⟨(i 1).val, (i 1).isLt⟩ : Fin 128))) (FloatOps.ofBits (F := Ideal) .f32 0x00000000#32)

/-- One block's result at entry (p, q), from the block's entry (p, q) and the bias row's entry q. -/
theorem block_entry (x0 : FVec Ideal S2000x128 .f32) (x1 : FVec Ideal S1x128 .f32) (p : Fin 2000) (q : Fin 128) :
    k1_pay1 (F := Ideal) x0 x1 (ix2 p q) = max (x0 (ix2 p q) + x1 (ix2 (0 : Fin 1) q)) (FloatOps.ofBits (F := Ideal) .f32 0x00000000#32) := by
  unfold k1_pay1
  show max (shapeCast S2000x128 x0 shapeCasts_S2000x128_S2000x128 (ix2 p q) + broadcastTo S2000x128 (shapeCast S1x128 x1 shapeCasts_S1x128_S1x128) broadcasts_S1x128_S2000x128 (ix2 p q)) (FloatOps.ofBits (F := Ideal) .f32 0x00000000#32) = _
  rw [shapeCast_self, shapeCast_self, broadcastTo_1b_ab_apply]

/-- Where each window's block sits at grid point t: the input and output blocks at row block t, the bias row whole. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole-array function of the two input arrays. -/
theorem written_block (c : Dev nD) (t : Fin cfg1.N) :
    (dat1 V c).flushed 2 t = ((cfg1.win 2).blk t).view.read (Elt Ideal) (biasRelu (V c main_v47) (V c main_v48)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := block_positions t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = biasRelu (V c main_v47) (V c main_v48) (((cfg1.win 2).blk t).view.emb (ix2 p q))
  refine (block_entry _ _ p q).trans ?_
  unfold biasRelu
  have h0 : (iblk1 V c 0 t : S2000x128.Idx → EReal) (ix2 p q) = V c main_v47 (((cfg1.win 2).blk t).view.emb (ix2 p q)) := by
    show V c main_v47 (((cfg1.win 0).blk t).view.emb (ix2 p q)) = _
    refine congrArg (V c main_v47) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : (iblk1 V c 1 t : S1x128.Idx → EReal) (ix2 (0 : Fin 1) q)
      = V c main_v48 (ix2 (0 : Fin 1) (⟨((((cfg1.win 2).blk t).view.emb (ix2 p q)) 1).val, ((((cfg1.win 2).blk t).view.emb (ix2 p q)) 1).isLt⟩ : Fin 128)) := by
    show V c main_v48 (((cfg1.win 1).blk t).view.emb (ix2 (0 : Fin 1) q)) = _
    refine congrArg (V c main_v48) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- An index of the output array lies in grid point t's block iff its row is among rows 2000 t … 2000 t + 1999. -/
theorem in_block_iff (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Every row of the output lies in the block of the grid point its row block names. -/
theorem rows_covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_2 _, ?_⟩
  rw [in_block_iff]
  obtain ⟨e0, e1, e2, e3, e4, e5⟩ := block_positions ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e5]; omega

/-- After the launch the output array holds the whole-array function of the two input arrays as the launch found them. -/
theorem after_launch (c : Dev nD) : (dat1 V c).arrAt 2 cfg1.N = biasRelu (V c main_v47) (V c main_v48) :=
  (dat1 V c).arrAt_eq_of_cover 2 (biasRelu (V c main_v47) (V c main_v48)) (fun t _ => written_block V c t) rows_covered

end Cert.KernelIdeal.Act1

end
-- ==== Proof.Act3.lean ====
/-
  The fourth launch: a bias row added to every row, then an activation, row block by row block.

  The launch walks fifty row blocks of 2000 rows. At block t it reads rows 2000 t … 2000 t + 1999 of the
  100000 by 128 input array and the one 1 by 128 bias row, adds the bias row to each row, applies the maximum with zero
  entry by entry, and writes the block to the same rows of the output. So after the launch every entry (r, q) of the
  output is that function of input (r, q) and bias (0, q).
-/
import proofs.«150902_j25082609009166_1_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Act3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row added to every row, then the larger of that and zero, entry by entry. -/
def biasRelu (a : S100000x128.Idx → EReal) (b : S1x128.Idx → EReal) : S100000x128.Idx → EReal :=
  fun i => max (a i + b (ix2 (0 : Fin 1) (⟨(i 1).val, (i 1).isLt⟩ : Fin 128))) (FloatOps.ofBits (F := Ideal) .f32 0x00000000#32)

/-- One block's result at entry (p, q), from the block's entry (p, q) and the bias row's entry q. -/
theorem block_entry (x0 : FVec Ideal S2000x128 .f32) (x1 : FVec Ideal S1x128 .f32) (p : Fin 2000) (q : Fin 128) :
    k3_pay1 (F := Ideal) x0 x1 (ix2 p q) = max (x0 (ix2 p q) + x1 (ix2 (0 : Fin 1) q)) (FloatOps.ofBits (F := Ideal) .f32 0x00000000#32) := by
  unfold k3_pay1
  show max (shapeCast S2000x128 x0 shapeCasts_S2000x128_S2000x128 (ix2 p q) + broadcastTo S2000x128 (shapeCast S1x128 x1 shapeCasts_S1x128_S1x128) broadcasts_S1x128_S2000x128 (ix2 p q)) (FloatOps.ofBits (F := Ideal) .f32 0x00000000#32) = _
  rw [shapeCast_self, shapeCast_self, broadcastTo_1b_ab_apply]

/-- Where each window's block sits at grid point t: the input and output blocks at row block t, the bias row whole. -/
theorem block_positions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole-array function of the two input arrays. -/
theorem written_block (c : Dev nD) (t : Fin cfg3.N) :
    (dat3 V c).flushed 2 t = ((cfg3.win 2).blk t).view.read (Elt Ideal) (biasRelu (V c main_v63) (V c main_v64)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S1x128) zero_offsets]
  obtain ⟨e0, e1, e2, e3, e4, e5⟩ := block_positions t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q)
    = biasRelu (V c main_v63) (V c main_v64) (((cfg3.win 2).blk t).view.emb (ix2 p q))
  refine (block_entry _ _ p q).trans ?_
  unfold biasRelu
  have h0 : (iblk3 V c 0 t : S2000x128.Idx → EReal) (ix2 p q) = V c main_v63 (((cfg3.win 2).blk t).view.emb (ix2 p q)) := by
    show V c main_v63 (((cfg3.win 0).blk t).view.emb (ix2 p q)) = _
    refine congrArg (V c main_v63) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : (iblk3 V c 1 t : S1x128.Idx → EReal) (ix2 (0 : Fin 1) q)
      = V c main_v64 (ix2 (0 : Fin 1) (⟨((((cfg3.win 2).blk t).view.emb (ix2 p q)) 1).val, ((((cfg3.win 2).blk t).view.emb (ix2 p q)) 1).isLt⟩ : Fin 128)) := by
    show V c main_v64 (((cfg3.win 1).blk t).view.emb (ix2 (0 : Fin 1) q)) = _
    refine congrArg (V c main_v64) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]

/-- An index of the output array lies in grid point t's block iff its row is among rows 2000 t … 2000 t + 1999. -/
theorem in_block_iff (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v65).slice (win3_2.rect t)).set ↔ _
  rw [View.set_slice_whole, Rect.mem_set_unit]
  exact Iff.rfl

/-- Every row of the output lies in the block of the grid point its row block names. -/
theorem rows_covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_2 _, ?_⟩
  rw [in_block_iff]
  obtain ⟨e0, e1, e2, e3, e4, e5⟩ := block_positions ⟨(i 0).val / 2000, by rw [hN]; omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ (i 0).val ∧ (i 0).val < (i 0).val / 2000 * 2000 + 2000; omega
  | ⟨1, _⟩ => show win3_2.index _ (1 : Fin 2) * 128 ≤ (i 1).val ∧ (i 1).val < win3_2.index _ (1 : Fin 2) * 128 + 128; rw [e5]; omega

/-- After the launch the output array holds the whole-array function of the two input arrays as the launch found them. -/
theorem after_launch (c : Dev nD) : (dat3 V c).arrAt 2 cfg3.N = biasRelu (V c main_v63) (V c main_v64) :=
  (dat3 V c).arrAt_eq_of_cover 2 (biasRelu (V c main_v63) (V c main_v64)) (fun t _ => written_block V c t) rows_covered

end Cert.KernelIdeal.Act3

end
-- ==== Proof.Act5.lean ====
/-
  The sixth launch: a bias row added to every row, then an activation, row block by row block.

  The launch walks fifty row blocks of 2000 rows. At block t it reads rows 2000 t … 2000 t + 1999 of the
  100000 by 1 input array and the one 1 by 1 bias row, adds the bias row to each row, applies zero plus one times the logistic function
  entry by entry, and writes the block to the same rows of the output. So after the launch every entry (r, q) of the
  output is that function of input (r, q) and bias (0, q).
-/
import proofs.«150902_j25082609009166_1_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Act5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias added to every row, then zero plus one times the logistic function of that, entry by entry. -/
def biasSigmoid (a : S100000x1.Idx → EReal) (b : S1x1.Idx → EReal) : S100000x1.Idx → EReal :=
  fun i => FloatOps.ofBits (F := Ideal) .f32 0x00000000#32 + FloatOps.ofBits (F := Ideal) .f32 0x3F800000#32 * Ideal.logistic (a i + b (ix2 (0 : Fin 1) (⟨(i 1).val, (i 1).isLt⟩ : Fin 1)))

/-- One block's result at entry (p, q), from the block's entry (p, q) and the bias row's entry q. -/
theorem block_entry (x0 : FVec Ideal S2000x1 .f32) (x1 : FVec Ideal S1x1 .f32) (p : Fin 2000) (q : Fin 1) :
    k5_pay1 (F := Ideal) x0 x1 (ix2 p q) = FloatOps.ofBits (F := Ideal) .f32 0x00000000#32 + FloatOps.ofBits (F := Ideal) .f32 0x3F800000#32 * Ideal.logistic (x0 (ix2 p q) + x1 (ix2 (0 : Fin 1) q)) := by
  unfold k5_pay1
  show FloatOps.ofBits (F := Ideal) .f32 0x00000000#32 + FloatOps.ofBits (F := Ideal) .f32 0x3F800000#32 * Ideal.logistic (shapeCast S2000x1 x0 shapeCasts_S2000x1_S2000x1 (ix2 p q) + broadcastTo S2000x1 (shapeCast S1x1 x1 shapeCasts_S1x1_S1x1) broadcasts_S1x1_S2000x1 (ix2 p q)) = _
  rw [shapeCast_self, shapeCast_self, broadcastTo_1b_ab_apply]

/-- Where each window's block sits at grid point t: the input and output blocks at row block t, the bias row whole. -/
theorem block_positions : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of the whole-array function of the two input arrays. -/
theorem written_block (c : Dev nD) (t : Fin cfg5.N) :
    (dat5 V c).flushed 2 t = ((cfg5.win 2).blk t).view.read (Elt Ideal) (biasSigmoid (V c main_v78) (V c main_v79)) := by
  show (cfg5.win 2).cut (grid5.coords t) ((dat5 V c).after 2 t) = _
  rw [after5_2]
  unfold out5_2
  rw [View.canon_unit_zero zero_offsets]
  simp only [View.ld_unit_zero (S := S2000x1) zero_offsets, View.ld_unit_zero (S := S1x1) zero_offsets]
  obtain ⟨e0, e1, e2, e3, e4, e5⟩ := block_positions t
  funext j
  obtain ⟨p, q, rfl⟩ : ∃ (p : Fin 2000) (q : Fin 1), j = ix2 p q := ⟨j 0, j 1, eq_ix2 j⟩
  show k5_pay1 (F := Ideal) (iblk5 V c 0 t) (iblk5 V c 1 t) (ix2 p q)
    = biasSigmoid (V c main_v78) (V c main_v79) (((cfg5.win 2).blk t).view.emb (ix2 p q))
  refine (block_entry _ _ p q).trans ?_
  unfold biasSigmoid
  have h0 : (iblk5 V c 0 t : S2000x1.Idx → EReal) (ix2 p q) = V c main_v78 (((cfg5.win 2).blk t).view.emb (ix2 p q)) := by
    show V c main_v78 (((cfg5.win 0).blk t).view.emb (ix2 p q)) = _
    refine congrArg (V c main_v78) (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 1 + 1 * q.val = win5_2.index t (1 : Fin 2) * 1 + 1 * q.val; omega
  have h1 : (iblk5 V c 1 t : S1x1.Idx → EReal) (ix2 (0 : Fin 1) q)
      = V c main_v79 (ix2 (0 : Fin 1) (⟨((((cfg5.win 2).blk t).view.emb (ix2 p q)) 1).val, ((((cfg5.win 2).blk t).view.emb (ix2 p q)) 1).isLt⟩ : Fin 1)) := by
    show V c main_v79 (((cfg5.win 1).blk t).view.emb (ix2 (0 : Fin 1) q)) = _
    refine congrArg (V c main_v79) (funext fun a => Fin.ext ?_)
    match a with
    | ⟨0, _⟩ => show win5_1.index t (0 : Fin 2) * 1 + 1 * 0 = 0; omega
    | ⟨1, _⟩ => show win5_1.index t (1 : Fin 2) * 1 + 1 * q.val = win5_2.index t (1 : Fin 2) * 1 + 1 * q.val; omega
  rw [h0, h1]

/-- An index of the output array lies in grid point t's block iff its row is among rows 2000 t … 2000 t + 1999. -/
theorem in_block_iff (t : Fin cfg5.N) (i : S100000x1.Idx) :
    i ∈ ((cfg5.win 2).blk t).view.set ↔ ∀ a : Fin 2, win5_2.index t a * S2000x1.size a ≤ (i a).val ∧ (i a).val < win5_2.index t a * S2000x1.size a + S2000x1.size a := by
  show i ∈ ((View.whole main_v80).slice (win5_2.rect t)).set ↔ _
  rw [View.set_slice_whole, Rect.mem_set_unit]
  exact Iff.rfl

/-- Every row of the output lies in the block of the grid point its row block names. -/
theorem rows_covered (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 50 := N_5
  refine ⟨⟨(i 0).val / 2000, by rw [hN]; omega⟩, flush5_2 _, ?_⟩
  rw [in_block_iff]
  obtain ⟨e0, e1, e2, e3, e4, e5⟩ := block_positions ⟨(i 0).val / 2000, by rw [hN]; omega⟩
  intro a
  match a with
  | ⟨0, _⟩ => show win5_2.index _ (0 : Fin 2) * 2000 ≤ (i 0).val ∧ (i 0).val < win5_2.index _ (0 : Fin 2) * 2000 + 2000; rw [e4]; show (i 0).val / 2000 * 2000 ≤ (i 0).val ∧ (i 0).val < (i 0).val / 2000 * 2000 + 2000; omega
  | ⟨1, _⟩ => show win5_2.index _ (1 : Fin 2) * 1 ≤ (i 1).val ∧ (i 1).val < win5_2.index _ (1 : Fin 2) * 1 + 1; rw [e5]; omega

/-- After the launch the output array holds the whole-array function of the two input arrays as the launch found them. -/
theorem after_launch (c : Dev nD) : (dat5 V c).arrAt 2 cfg5.N = biasSigmoid (V c main_v78) (V c main_v79) :=
  (dat5 V c).arrAt_eq_of_cover 2 (biasSigmoid (V c main_v78) (V c main_v79)) (fun t _ => written_block V c t) rows_covered

end Cert.KernelIdeal.Act5

end
-- ==== Proof.StageEq.lean ====
/-
  The launches' whole-array functions are the reference's stages.

  Each launch leaves one whole-array function of its two input arrays. Read at the reference's corresponding inputs
  these are the reference's stages: a row-blocked product is the host's matrix product with one contracted axis,
  entry by entry the same sum over the contracted axis; the bias row (the bias vector given a leading unit axis by a
  reshape in one program, by a broadcast in the other) added to every row and followed by the maximum with zero is the
  reference's addition of the broadcast bias followed by its rectifier; and zero plus one times the logistic function of
  the biased last layer is the reference's zero plus one times the quotient of one by one plus the exponential of the
  negated argument, the logistic function being that quotient on every extended real.
-/
import proofs.«150902_j25082609009166_1_alg».proof.Proof.Mat0
import proofs.«150902_j25082609009166_1_alg».proof.Proof.Mat2
import proofs.«150902_j25082609009166_1_alg».proof.Proof.Mat4
import proofs.«150902_j25082609009166_1_alg».proof.Proof.Act1
import proofs.«150902_j25082609009166_1_alg».proof.Proof.Act3
import proofs.«150902_j25082609009166_1_alg».proof.Proof.Act5
import proofs.«150902_j25082609009166_1_alg».proof.Proof.Gen.ReferenceIdeal.Read
import Idealize.ShloMosaic.Lib.ValueLayout
import Idealize.ShloMosaic.Lib.IdealHost

set_option maxRecDepth 16384

noncomputable section

namespace Cert.KernelIdeal.StageEq

open Idealize.ShloMosaic Idealize.ShloMosaic.TcCoe Idealize.ShloMosaic.ValueIdx
open Cert.ReferenceIdeal.Read

/-- The first product is the reference's first matrix product. -/
theorem prod0 (x0 : (⟨Cert.ReferenceIdeal.S100000x64, .f32⟩ : BufTy).Contents (Elt Ideal)) (x3 : (⟨Cert.ReferenceIdeal.S64x128, .f32⟩ : BufTy).Contents (Elt Ideal)) :
    Cert.KernelIdeal.Mat0.prod x0 x3 = val_main_v34 (F := Ideal) x0 x3 := by
  funext i
  rw [val_main_v34_apply]
  unfold Cert.KernelIdeal.Mat0.prod
  refine Finset.sum_congr rfl fun k _ => ?_
  have el : (ix2 (⟨(i 0).val, (i 0).isLt⟩ : Fin 100000) k : Cert.ReferenceIdeal.S100000x64.Idx) = lidx_main_v34 i k :=
    funext fun a => Fin.ext (by match a with | ⟨0, _⟩ => rfl | ⟨1, _⟩ => rfl)
  have er : (ix2 k (⟨(i 1).val, (i 1).isLt⟩ : Fin 128) : Cert.ReferenceIdeal.S64x128.Idx) = ridx_main_v34 i k :=
    funext fun a => Fin.ext (by match a with | ⟨0, _⟩ => rfl | ⟨1, _⟩ => rfl)
  rw [el, er]

/-- The first bias and rectifier: the bias vector given a leading unit axis by a reshape, added to every row and followed by the maximum with zero, is the reference's broadcast bias added and followed by its rectifier. -/
theorem act1 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal))
    (h : Cert.KernelIdeal.S128.ShapeCasts Cert.KernelIdeal.S1x128) :
    Cert.KernelIdeal.Act1.biasRelu (val_main_v47 (F := Ideal) x0 x1 x2 x3) (shapeCast Cert.KernelIdeal.S1x128 x4 h)
      = val_main_v51 (F := Ideal) x0 x1 x2 x3 x4 := by
  funext i
  rw [val_main_v51_apply, val_main_v50_apply, val_main_v49_apply, val_main_v48_apply, val_main_call1_v0_apply, val_main_call1_cst_apply]
  generalize val_main_v47 (F := Ideal) x0 x1 x2 x3 = a
  unfold Cert.KernelIdeal.Act1.biasRelu
  rw [shapeCast_a_1a_apply]
  have e : idx_main_v48 (idx_main_v49 i) = ix1 (⟨(i 1).val, (i 1).isLt⟩ : Fin 128) :=
    funext fun a => Fin.ext (by match a with | ⟨0, _⟩ => rfl)
  rw [e]
  rfl

/-- The second product is the reference's second matrix product. -/
theorem prod2 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) :
    Cert.KernelIdeal.Mat2.prod (val_main_v51 (F := Ideal) x0 x1 x2 x3 x4) x5 = val_main_v52 (F := Ideal) x0 x1 x2 x3 x4 x5 := by
  funext i
  rw [val_main_v52_apply]
  generalize val_main_v51 (F := Ideal) x0 x1 x2 x3 x4 = a
  unfold Cert.KernelIdeal.Mat2.prod
  refine Finset.sum_congr rfl fun k _ => ?_
  have el : (ix2 (⟨(i 0).val, (i 0).isLt⟩ : Fin 100000) k : Cert.ReferenceIdeal.S100000x128.Idx) = lidx_main_v52 i k :=
    funext fun a => Fin.ext (by match a with | ⟨0, _⟩ => rfl | ⟨1, _⟩ => rfl)
  have er : (ix2 k (⟨(i 1).val, (i 1).isLt⟩ : Fin 128) : Cert.ReferenceIdeal.S128x128.Idx) = ridx_main_v52 i k :=
    funext fun a => Fin.ext (by match a with | ⟨0, _⟩ => rfl | ⟨1, _⟩ => rfl)
  rw [el, er]

/-- The second bias and rectifier, as the first. -/
theorem act3 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (h : Cert.KernelIdeal.S128.ShapeCasts Cert.KernelIdeal.S1x128) :
    Cert.KernelIdeal.Act3.biasRelu (val_main_v65 (F := Ideal) x0 x1 x2 x3 x4 x5) (shapeCast Cert.KernelIdeal.S1x128 x6 h)
      = val_main_v69 (F := Ideal) x0 x1 x2 x3 x4 x5 x6 := by
  funext i
  rw [val_main_v69_apply, val_main_v68_apply, val_main_v67_apply, val_main_v66_apply, val_main_call2_v0_apply, val_main_call2_cst_apply]
  generalize val_main_v65 (F := Ideal) x0 x1 x2 x3 x4 x5 = a
  unfold Cert.KernelIdeal.Act3.biasRelu
  rw [shapeCast_a_1a_apply]
  have e : idx_main_v66 (idx_main_v67 i) = ix1 (⟨(i 1).val, (i 1).isLt⟩ : Fin 128) :=
    funext fun a => Fin.ext (by match a with | ⟨0, _⟩ => rfl)
  rw [e]
  rfl

/-- The third product is the reference's third matrix product. -/
theorem prod4 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x1, .f32⟩ : BufTy).Contents (Elt Ideal)) :
    Cert.KernelIdeal.Mat4.prod (val_main_v69 (F := Ideal) x0 x1 x2 x3 x4 x5 x6) x7 = val_main_v70 (F := Ideal) x0 x1 x2 x3 x4 x5 x6 x7 := by
  funext i
  rw [val_main_v70_apply]
  generalize val_main_v69 (F := Ideal) x0 x1 x2 x3 x4 x5 x6 = a
  unfold Cert.KernelIdeal.Mat4.prod
  refine Finset.sum_congr rfl fun k _ => ?_
  have el : (ix2 (⟨(i 0).val, (i 0).isLt⟩ : Fin 100000) k : Cert.ReferenceIdeal.S100000x128.Idx) = lidx_main_v70 i k :=
    funext fun a => Fin.ext (by match a with | ⟨0, _⟩ => rfl | ⟨1, _⟩ => rfl)
  have er : (ix2 k (⟨(i 1).val, (i 1).isLt⟩ : Fin 1) : Cert.ReferenceIdeal.S128x1.Idx) = ridx_main_v70 i k :=
    funext fun a => Fin.ext (by match a with | ⟨0, _⟩ => rfl | ⟨1, _⟩ => rfl)
  rw [el, er]
/-- The last bias and the rescaled logistic function: the bias given a leading unit axis by a reshape and added to every
    row, then zero plus one times the logistic function, is the reference's broadcast bias added, then zero plus one times
    the quotient of one by one plus the exponential of the negated sum. -/
theorem act5 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x1, .f32⟩ : BufTy).Contents (Elt Ideal)) (x8 : (⟨Cert.ReferenceIdeal.S1, .f32⟩ : BufTy).Contents (Elt Ideal))
    (h : Cert.KernelIdeal.S1.ShapeCasts Cert.KernelIdeal.S1x1) :
    Cert.KernelIdeal.Act5.biasSigmoid (val_main_v82 (F := Ideal) x0 x1 x2 x3 x4 x5 x6 x7) (shapeCast Cert.KernelIdeal.S1x1 x8 h)
      = val_main_v95 (F := Ideal) x0 x1 x2 x3 x4 x5 x6 x7 x8 := by
  funext i
  rw [val_main_v95_apply, val_main_v94_apply, val_main_cst_19_apply, val_main_v93_apply, val_main_v92_apply, val_main_cst_18_apply,
    val_main_v91_apply, val_main_v90_apply, val_main_cst_17_apply, val_main_v89_apply, val_main_v88_apply, val_main_cst_16_apply,
    val_main_v87_apply, val_main_v86_apply, val_main_v85_apply, val_main_v84_apply, val_main_v83_apply]
  generalize val_main_v82 (F := Ideal) x0 x1 x2 x3 x4 x5 x6 x7 = a
  unfold Cert.KernelIdeal.Act5.biasSigmoid
  rw [shapeCast_a_1a_apply]
  have e : idx_main_v83 (idx_main_v84 i) = ix1 (⟨(i 1).val, (i 1).isLt⟩ : Fin 1) :=
    funext fun a => Fin.ext (by
      match a with
      | ⟨0, _⟩ => show 0 = (i 1).val; have h1 : (i 1).val < 1 := (i 1).isLt; omega)
  rw [e]
  simp only [Ideal.ofBits_def, Ideal.addf_def, Ideal.mulf_def, Ideal.hostDivf_def, Ideal.hostUnary_exp_def, Ideal.hostNegf_def,
    Ideal.negf_def, Ideal.ofBits_one_f32, Ideal.logistic]

end Cert.KernelIdeal.StageEq

end
-- ==== Proof.Chain.lean ====
/-
  The kernel program's result, boundary by boundary, is the reference's last stage.

  The program alternates stretches of host operations with six launches. Walking its boundaries from the launch
  memory: the host stretches write the reference's stages of whatever they read, a buffer nobody writes keeps its
  contents, and each launch leaves its whole-array function of its two input arrays, which is the reference's next
  stage. The edge rows and columns, the normalized edge weights and the arguments still to be read are carried along
  unchanged. At the last boundary the result array holds the reference's last stage of the nine argument arrays.
-/
import proofs.«150902_j25082609009166_1_alg».proof.Proof.Gen.KernelIdeal.Frame
import proofs.«150902_j25082609009166_1_alg».proof.Proof.HostGlue
import proofs.«150902_j25082609009166_1_alg».proof.Proof.StageEq

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- After the first stretch: the edge rows with self loops. -/
theorem L1_v5 : W1 m ρ c (Proc.devRef .tc main_v5) = Cert.ReferenceIdeal.Read.val_main_v5 (F := Ideal) (m ((c.tc : Thread nD τ).loc main_arg1)) :=
  Cert.KernelIdeal.HostGlue.a_v5 (W0 m ρ c)

theorem L1_v6 : W1 m ρ c (Proc.devRef .tc main_v6) = Cert.ReferenceIdeal.Read.val_main_v6 (F := Ideal) (m ((c.tc : Thread nD τ).loc main_arg1)) :=
  Cert.KernelIdeal.HostGlue.a_v6 (W0 m ρ c)

theorem L1_v8 : W1 m ρ c (Proc.devRef .tc main_v8) = Cert.ReferenceIdeal.Read.val_main_v8 (F := Ideal) (m ((c.tc : Thread nD τ).loc main_arg2)) :=
  Cert.KernelIdeal.HostGlue.a_v8 (W0 m ρ c)

theorem L1_v13 : W1 m ρ c (Proc.devRef .tc main_v13) = Cert.ReferenceIdeal.Read.val_main_v13 (F := Ideal) (m ((c.tc : Thread nD τ).loc main_arg1)) (m ((c.tc : Thread nD τ).loc main_arg2)) :=
  Cert.KernelIdeal.HostGlue.a_v13 (W0 m ρ c)

theorem L1_v16 : W1 m ρ c (Proc.devRef .tc main_v16) = Cert.ReferenceIdeal.Read.val_main_v16 (F := Ideal) (m ((c.tc : Thread nD τ).loc main_arg1)) (m ((c.tc : Thread nD τ).loc main_arg2)) :=
  Cert.KernelIdeal.HostGlue.a_v16 (W0 m ρ c)

theorem L1_cst3 : W1 m ρ c (Proc.devRef .tc main_cst_3) = Cert.ReferenceIdeal.Read.val_main_cst_3 (F := Ideal) :=
  Cert.KernelIdeal.HostGlue.a_cst3 (W0 m ρ c)

theorem L1_arg0 : W1 m ρ c (Proc.devRef .tc main_arg0) = m ((c.tc : Thread nD τ).loc main_arg0) :=
  Cert.KernelIdeal.HostGlue.a_keep_main_arg0 (W0 m ρ c)

theorem L1_arg3 : W1 m ρ c (Proc.devRef .tc main_arg3) = m ((c.tc : Thread nD τ).loc main_arg3) :=
  Cert.KernelIdeal.HostGlue.a_keep_main_arg3 (W0 m ρ c)

theorem L1_arg4 : W1 m ρ c (Proc.devRef .tc main_arg4) = m ((c.tc : Thread nD τ).loc main_arg4) :=
  Cert.KernelIdeal.HostGlue.a_keep_main_arg4 (W0 m ρ c)

theorem L1_arg5 : W1 m ρ c (Proc.devRef .tc main_arg5) = m ((c.tc : Thread nD τ).loc main_arg5) :=
  Cert.KernelIdeal.HostGlue.a_keep_main_arg5 (W0 m ρ c)

theorem L1_arg6 : W1 m ρ c (Proc.devRef .tc main_arg6) = m ((c.tc : Thread nD τ).loc main_arg6) :=
  Cert.KernelIdeal.HostGlue.a_keep_main_arg6 (W0 m ρ c)

theorem L1_arg7 : W1 m ρ c (Proc.devRef .tc main_arg7) = m ((c.tc : Thread nD τ).loc main_arg7) :=
  Cert.KernelIdeal.HostGlue.a_keep_main_arg7 (W0 m ρ c)

theorem L1_arg8 : W1 m ρ c (Proc.devRef .tc main_arg8) = m ((c.tc : Thread nD τ).loc main_arg8) :=
  Cert.KernelIdeal.HostGlue.a_keep_main_arg8 (W0 m ρ c)

/-- After the second stretch: the inverse square roots of the positive degrees. -/
theorem L2_v17 : W2 m ρ c (Proc.devRef .tc main_v17) = Cert.ReferenceIdeal.Read.val_main_v17 (F := Ideal) (m ((c.tc : Thread nD τ).loc main_arg1)) (m ((c.tc : Thread nD τ).loc main_arg2)) :=
  (Cert.KernelIdeal.HostGlue.b_v17 (W1 m ρ c)).trans (by rw [L1_v13 m ρ c, L1_v16 m ρ c, L1_cst3 m ρ c]; rfl)

theorem L2_v5 : W2 m ρ c (Proc.devRef .tc main_v5) = Cert.ReferenceIdeal.Read.val_main_v5 (F := Ideal) (m ((c.tc : Thread nD τ).loc main_arg1)) :=
  (Cert.KernelIdeal.HostGlue.b_keep_main_v5 (W1 m ρ c)).trans (L1_v5 m ρ c)

theorem L2_v6 : W2 m ρ c (Proc.devRef .tc main_v6) = Cert.ReferenceIdeal.Read.val_main_v6 (F := Ideal) (m ((c.tc : Thread nD τ).loc main_arg1)) :=
  (Cert.KernelIdeal.HostGlue.b_keep_main_v6 (W1 m ρ c)).trans (L1_v6 m ρ c)

theorem L2_v8 : W2 m ρ c (Proc.devRef .tc main_v8) = Cert.ReferenceIdeal.Read.val_main_v8 (F := Ideal) (m ((c.tc : Thread nD τ).loc main_arg2)) :=
  (Cert.KernelIdeal.HostGlue.b_keep_main_v8 (W1 m ρ c)).trans (L1_v8 m ρ c)

theorem L2_arg0 : W2 m ρ c (Proc.devRef .tc main_arg0) = m ((c.tc : Thread nD τ).loc main_arg0) :=
  (Cert.KernelIdeal.HostGlue.b_keep_main_arg0 (W1 m ρ c)).trans (L1_arg0 m ρ c)

theorem L2_arg3 : W2 m ρ c (Proc.devRef .tc main_arg3) = m ((c.tc : Thread nD τ).loc main_arg3) :=
  (Cert.KernelIdeal.HostGlue.b_keep_main_arg3 (W1 m ρ c)).trans (L1_arg3 m ρ c)

theorem L2_arg4 : W2 m ρ c (Proc.devRef .tc main_arg4) = m ((c.tc : Thread nD τ).loc main_arg4) :=
  (Cert.KernelIdeal.HostGlue.b_keep_main_arg4 (W1 m ρ c)).trans (L1_arg4 m ρ c)

theorem L2_arg5 : W2 m ρ c (Proc.devRef .tc main_arg5) = m ((c.tc : Thread nD τ).loc main_arg5) :=
  (Cert.KernelIdeal.HostGlue.b_keep_main_arg5 (W1 m ρ c)).trans (L1_arg5 m ρ c)

theorem L2_arg6 : W2 m ρ c (Proc.devRef .tc main_arg6) = m ((c.tc : Thread nD τ).loc main_arg6) :=
  (Cert.KernelIdeal.HostGlue.b_keep_main_arg6 (W1 m ρ c)).trans (L1_arg6 m ρ c)

theorem L2_arg7 : W2 m ρ c (Proc.devRef .tc main_arg7) = m ((c.tc : Thread nD τ).loc main_arg7) :=
  (Cert.KernelIdeal.HostGlue.b_keep_main_arg7 (W1 m ρ c)).trans (L1_arg7 m ρ c)

theorem L2_arg8 : W2 m ρ c (Proc.devRef .tc main_arg8) = m ((c.tc : Thread nD τ).loc main_arg8) :=
  (Cert.KernelIdeal.HostGlue.b_keep_main_arg8 (W1 m ρ c)).trans (L1_arg8 m ρ c)

/-- After the third stretch: the normalized edge weights. -/
theorem L3_v33 : W3 m ρ c (Proc.devRef .tc main_v33) = Cert.ReferenceIdeal.Read.val_main_v33 (F := Ideal) (m ((c.tc : Thread nD τ).loc main_arg1)) (m ((c.tc : Thread nD τ).loc main_arg2)) :=
  Cert.KernelIdeal.HostGlue.c_v33 (W2 m ρ c) _ _ (L2_v17 m ρ c) (L2_v5 m ρ c) (L2_v6 m ρ c) (L2_v8 m ρ c)

theorem L3_v5 : W3 m ρ c (Proc.devRef .tc main_v5) = Cert.ReferenceIdeal.Read.val_main_v5 (F := Ideal) (m ((c.tc : Thread nD τ).loc main_arg1)) :=
  (Cert.KernelIdeal.HostGlue.c_keep_main_v5 (W2 m ρ c)).trans (L2_v5 m ρ c)

theorem L3_v6 : W3 m ρ c (Proc.devRef .tc main_v6) = Cert.ReferenceIdeal.Read.val_main_v6 (F := Ideal) (m ((c.tc : Thread nD τ).loc main_arg1)) :=
  (Cert.KernelIdeal.HostGlue.c_keep_main_v6 (W2 m ρ c)).trans (L2_v6 m ρ c)

theorem L3_arg0 : W3 m ρ c (Proc.devRef .tc main_arg0) = m ((c.tc : Thread nD τ).loc main_arg0) :=
  (Cert.KernelIdeal.HostGlue.c_keep_main_arg0 (W2 m ρ c)).trans (L2_arg0 m ρ c)

theorem L3_arg3 : W3 m ρ c (Proc.devRef .tc main_arg3) = m ((c.tc : Thread nD τ).loc main_arg3) :=
  (Cert.KernelIdeal.HostGlue.c_keep_main_arg3 (W2 m ρ c)).trans (L2_arg3 m ρ c)

theorem L3_arg4 : W3 m ρ c (Proc.devRef .tc main_arg4) = m ((c.tc : Thread nD τ).loc main_arg4) :=
  (Cert.KernelIdeal.HostGlue.c_keep_main_arg4 (W2 m ρ c)).trans (L2_arg4 m ρ c)

theorem L3_arg5 : W3 m ρ c (Proc.devRef .tc main_arg5) = m ((c.tc : Thread nD τ).loc main_arg5) :=
  (Cert.KernelIdeal.HostGlue.c_keep_main_arg5 (W2 m ρ c)).trans (L2_arg5 m ρ c)

theorem L3_arg6 : W3 m ρ c (Proc.devRef .tc main_arg6) = m ((c.tc : Thread nD τ).loc main_arg6) :=
  (Cert.KernelIdeal.HostGlue.c_keep_main_arg6 (W2 m ρ c)).trans (L2_arg6 m ρ c)

theorem L3_arg7 : W3 m ρ c (Proc.devRef .tc main_arg7) = m ((c.tc : Thread nD τ).loc main_arg7) :=
  (Cert.KernelIdeal.HostGlue.c_keep_main_arg7 (W2 m ρ c)).trans (L2_arg7 m ρ c)

theorem L3_arg8 : W3 m ρ c (Proc.devRef .tc main_arg8) = m ((c.tc : Thread nD τ).loc main_arg8) :=
  (Cert.KernelIdeal.HostGlue.c_keep_main_arg8 (W2 m ρ c)).trans (L2_arg8 m ρ c)

/-- After the first launch: the first linear image. -/
theorem L4_v34 : W4 m ρ c (Proc.devRef .tc main_v34) = Cert.ReferenceIdeal.Read.val_main_v34 (F := Ideal) (m ((c.tc : Thread nD τ).loc main_arg0)) (m ((c.tc : Thread nD τ).loc main_arg3)) :=
  (W4_arr m ρ c 2).trans ((Cert.KernelIdeal.Mat0.after_launch (V3 m ρ) c).trans
    ((congrArg₂ Cert.KernelIdeal.Mat0.prod (L3_arg0 m ρ c) (L3_arg3 m ρ c)).trans (Cert.KernelIdeal.StageEq.prod0 _ _)))

theorem L4_v5 : W4 m ρ c (Proc.devRef .tc main_v5) = Cert.ReferenceIdeal.Read.val_main_v5 (F := Ideal) (m ((c.tc : Thread nD τ).loc main_arg1)) :=
  (W4_of_ne m ρ c main_v5 (by decide)).trans (L3_v5 m ρ c)

theorem L4_v6 : W4 m ρ c (Proc.devRef .tc main_v6) = Cert.ReferenceIdeal.Read.val_main_v6 (F := Ideal) (m ((c.tc : Thread nD τ).loc main_arg1)) :=
  (W4_of_ne m ρ c main_v6 (by decide)).trans (L3_v6 m ρ c)

theorem L4_v33 : W4 m ρ c (Proc.devRef .tc main_v33) = Cert.ReferenceIdeal.Read.val_main_v33 (F := Ideal) (m ((c.tc : Thread nD τ).loc main_arg1)) (m ((c.tc : Thread nD τ).loc main_arg2)) :=
  (W4_of_ne m ρ c main_v33 (by decide)).trans (L3_v33 m ρ c)

theorem L4_arg4 : W4 m ρ c (Proc.devRef .tc main_arg4) = m ((c.tc : Thread nD τ).loc main_arg4) :=
  (W4_of_ne m ρ c main_arg4 (by decide)).trans (L3_arg4 m ρ c)

theorem L4_arg5 : W4 m ρ c (Proc.devRef .tc main_arg5) = m ((c.tc : Thread nD τ).loc main_arg5) :=
  (W4_of_ne m ρ c main_arg5 (by decide)).trans (L3_arg5 m ρ c)

theorem L4_arg6 : W4 m ρ c (Proc.devRef .tc main_arg6) = m ((c.tc : Thread nD τ).loc main_arg6) :=
  (W4_of_ne m ρ c main_arg6 (by decide)).trans (L3_arg6 m ρ c)

theorem L4_arg7 : W4 m ρ c (Proc.devRef .tc main_arg7) = m ((c.tc : Thread nD τ).loc main_arg7) :=
  (W4_of_ne m ρ c main_arg7 (by decide)).trans (L3_arg7 m ρ c)

theorem L4_arg8 : W4 m ρ c (Proc.devRef .tc main_arg8) = m ((c.tc : Thread nD τ).loc main_arg8) :=
  (W4_of_ne m ρ c main_arg8 (by decide)).trans (L3_arg8 m ρ c)

/-- After the fourth stretch: the first layer's aggregate. -/
theorem L5_v47 : W5 m ρ c (Proc.devRef .tc main_v47) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) :=
  Cert.KernelIdeal.HostGlue.d_v47 (W4 m ρ c) _ _ _ _ (L4_v34 m ρ c) (L4_v5 m ρ c) (L4_v6 m ρ c) (L4_v33 m ρ c)

theorem L5_v48 : W5 m ρ c (Proc.devRef .tc main_v48) = shapeCast S1x128 (m ((c.tc : Thread nD τ).loc main_arg4)) shapeCasts_S128_S1x128 :=
  (Cert.KernelIdeal.HostGlue.d_v48 (W4 m ρ c)).trans (congrArg (fun x => shapeCast S1x128 x shapeCasts_S128_S1x128) (L4_arg4 m ρ c))

theorem L5_v5 : W5 m ρ c (Proc.devRef .tc main_v5) = Cert.ReferenceIdeal.Read.val_main_v5 (F := Ideal) (m ((c.tc : Thread nD τ).loc main_arg1)) :=
  (Cert.KernelIdeal.HostGlue.d_keep_main_v5 (W4 m ρ c)).trans (L4_v5 m ρ c)

theorem L5_v6 : W5 m ρ c (Proc.devRef .tc main_v6) = Cert.ReferenceIdeal.Read.val_main_v6 (F := Ideal) (m ((c.tc : Thread nD τ).loc main_arg1)) :=
  (Cert.KernelIdeal.HostGlue.d_keep_main_v6 (W4 m ρ c)).trans (L4_v6 m ρ c)

theorem L5_v33 : W5 m ρ c (Proc.devRef .tc main_v33) = Cert.ReferenceIdeal.Read.val_main_v33 (F := Ideal) (m ((c.tc : Thread nD τ).loc main_arg1)) (m ((c.tc : Thread nD τ).loc main_arg2)) :=
  (Cert.KernelIdeal.HostGlue.d_keep_main_v33 (W4 m ρ c)).trans (L4_v33 m ρ c)

theorem L5_arg5 : W5 m ρ c (Proc.devRef .tc main_arg5) = m ((c.tc : Thread nD τ).loc main_arg5) :=
  (Cert.KernelIdeal.HostGlue.d_keep_main_arg5 (W4 m ρ c)).trans (L4_arg5 m ρ c)

theorem L5_arg6 : W5 m ρ c (Proc.devRef .tc main_arg6) = m ((c.tc : Thread nD τ).loc main_arg6) :=
  (Cert.KernelIdeal.HostGlue.d_keep_main_arg6 (W4 m ρ c)).trans (L4_arg6 m ρ c)

theorem L5_arg7 : W5 m ρ c (Proc.devRef .tc main_arg7) = m ((c.tc : Thread nD τ).loc main_arg7) :=
  (Cert.KernelIdeal.HostGlue.d_keep_main_arg7 (W4 m ρ c)).trans (L4_arg7 m ρ c)

theorem L5_arg8 : W5 m ρ c (Proc.devRef .tc main_arg8) = m ((c.tc : Thread nD τ).loc main_arg8) :=
  (Cert.KernelIdeal.HostGlue.d_keep_main_arg8 (W4 m ρ c)).trans (L4_arg8 m ρ c)

/-- After the second launch: the first layer's activations. -/
theorem L6_v49 : W6 m ρ c (Proc.devRef .tc main_v49) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 2).trans ((Cert.KernelIdeal.Act1.after_launch (V5 m ρ) c).trans
    ((congrArg₂ Cert.KernelIdeal.Act1.biasRelu (L5_v47 m ρ c) (L5_v48 m ρ c)).trans (Cert.KernelIdeal.StageEq.act1 _ _ _ _ _ _)))

theorem L6_v5 : W6 m ρ c (Proc.devRef .tc main_v5) = Cert.ReferenceIdeal.Read.val_main_v5 (F := Ideal) (m ((c.tc : Thread nD τ).loc main_arg1)) :=
  (W6_of_ne m ρ c main_v5 (by decide)).trans (L5_v5 m ρ c)

theorem L6_v6 : W6 m ρ c (Proc.devRef .tc main_v6) = Cert.ReferenceIdeal.Read.val_main_v6 (F := Ideal) (m ((c.tc : Thread nD τ).loc main_arg1)) :=
  (W6_of_ne m ρ c main_v6 (by decide)).trans (L5_v6 m ρ c)

theorem L6_v33 : W6 m ρ c (Proc.devRef .tc main_v33) = Cert.ReferenceIdeal.Read.val_main_v33 (F := Ideal) (m ((c.tc : Thread nD τ).loc main_arg1)) (m ((c.tc : Thread nD τ).loc main_arg2)) :=
  (W6_of_ne m ρ c main_v33 (by decide)).trans (L5_v33 m ρ c)

theorem L6_arg5 : W6 m ρ c (Proc.devRef .tc main_arg5) = m ((c.tc : Thread nD τ).loc main_arg5) :=
  (W6_of_ne m ρ c main_arg5 (by decide)).trans (L5_arg5 m ρ c)

theorem L6_arg6 : W6 m ρ c (Proc.devRef .tc main_arg6) = m ((c.tc : Thread nD τ).loc main_arg6) :=
  (W6_of_ne m ρ c main_arg6 (by decide)).trans (L5_arg6 m ρ c)

theorem L6_arg7 : W6 m ρ c (Proc.devRef .tc main_arg7) = m ((c.tc : Thread nD τ).loc main_arg7) :=
  (W6_of_ne m ρ c main_arg7 (by decide)).trans (L5_arg7 m ρ c)

theorem L6_arg8 : W6 m ρ c (Proc.devRef .tc main_arg8) = m ((c.tc : Thread nD τ).loc main_arg8) :=
  (W6_of_ne m ρ c main_arg8 (by decide)).trans (L5_arg8 m ρ c)

/-- After the third launch: the second linear image. -/
theorem L7_v50 : W7 m ρ c (Proc.devRef .tc main_v50) = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W7_arr m ρ c 2).trans ((Cert.KernelIdeal.Mat2.after_launch (V6 m ρ) c).trans
    ((congrArg₂ Cert.KernelIdeal.Mat2.prod (L6_v49 m ρ c) (L6_arg5 m ρ c)).trans (Cert.KernelIdeal.StageEq.prod2 _ _ _ _ _ _)))

theorem L7_v5 : W7 m ρ c (Proc.devRef .tc main_v5) = Cert.ReferenceIdeal.Read.val_main_v5 (F := Ideal) (m ((c.tc : Thread nD τ).loc main_arg1)) :=
  (W7_of_ne m ρ c main_v5 (by decide)).trans (L6_v5 m ρ c)

theorem L7_v6 : W7 m ρ c (Proc.devRef .tc main_v6) = Cert.ReferenceIdeal.Read.val_main_v6 (F := Ideal) (m ((c.tc : Thread nD τ).loc main_arg1)) :=
  (W7_of_ne m ρ c main_v6 (by decide)).trans (L6_v6 m ρ c)

theorem L7_v33 : W7 m ρ c (Proc.devRef .tc main_v33) = Cert.ReferenceIdeal.Read.val_main_v33 (F := Ideal) (m ((c.tc : Thread nD τ).loc main_arg1)) (m ((c.tc : Thread nD τ).loc main_arg2)) :=
  (W7_of_ne m ρ c main_v33 (by decide)).trans (L6_v33 m ρ c)

theorem L7_arg6 : W7 m ρ c (Proc.devRef .tc main_arg6) = m ((c.tc : Thread nD τ).loc main_arg6) :=
  (W7_of_ne m ρ c main_arg6 (by decide)).trans (L6_arg6 m ρ c)

theorem L7_arg7 : W7 m ρ c (Proc.devRef .tc main_arg7) = m ((c.tc : Thread nD τ).loc main_arg7) :=
  (W7_of_ne m ρ c main_arg7 (by decide)).trans (L6_arg7 m ρ c)

theorem L7_arg8 : W7 m ρ c (Proc.devRef .tc main_arg8) = m ((c.tc : Thread nD τ).loc main_arg8) :=
  (W7_of_ne m ρ c main_arg8 (by decide)).trans (L6_arg8 m ρ c)

/-- After the fifth stretch: the second layer's aggregate. -/
theorem L8_v63 : W8 m ρ c (Proc.devRef .tc main_v63) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Cert.KernelIdeal.HostGlue.e_v63 (W7 m ρ c) _ _ _ _ _ _ (L7_v50 m ρ c) (L7_v5 m ρ c) (L7_v6 m ρ c) (L7_v33 m ρ c)

theorem L8_v64 : W8 m ρ c (Proc.devRef .tc main_v64) = shapeCast S1x128 (m ((c.tc : Thread nD τ).loc main_arg6)) shapeCasts_S128_S1x128 :=
  (Cert.KernelIdeal.HostGlue.e_v64 (W7 m ρ c)).trans (congrArg (fun x => shapeCast S1x128 x shapeCasts_S128_S1x128) (L7_arg6 m ρ c))

theorem L8_v5 : W8 m ρ c (Proc.devRef .tc main_v5) = Cert.ReferenceIdeal.Read.val_main_v5 (F := Ideal) (m ((c.tc : Thread nD τ).loc main_arg1)) :=
  (Cert.KernelIdeal.HostGlue.e_keep_main_v5 (W7 m ρ c)).trans (L7_v5 m ρ c)

theorem L8_v6 : W8 m ρ c (Proc.devRef .tc main_v6) = Cert.ReferenceIdeal.Read.val_main_v6 (F := Ideal) (m ((c.tc : Thread nD τ).loc main_arg1)) :=
  (Cert.KernelIdeal.HostGlue.e_keep_main_v6 (W7 m ρ c)).trans (L7_v6 m ρ c)

theorem L8_v33 : W8 m ρ c (Proc.devRef .tc main_v33) = Cert.ReferenceIdeal.Read.val_main_v33 (F := Ideal) (m ((c.tc : Thread nD τ).loc main_arg1)) (m ((c.tc : Thread nD τ).loc main_arg2)) :=
  (Cert.KernelIdeal.HostGlue.e_keep_main_v33 (W7 m ρ c)).trans (L7_v33 m ρ c)

theorem L8_arg7 : W8 m ρ c (Proc.devRef .tc main_arg7) = m ((c.tc : Thread nD τ).loc main_arg7) :=
  (Cert.KernelIdeal.HostGlue.e_keep_main_arg7 (W7 m ρ c)).trans (L7_arg7 m ρ c)

theorem L8_arg8 : W8 m ρ c (Proc.devRef .tc main_arg8) = m ((c.tc : Thread nD τ).loc main_arg8) :=
  (Cert.KernelIdeal.HostGlue.e_keep_main_arg8 (W7 m ρ c)).trans (L7_arg8 m ρ c)

/-- After the fourth launch: the second layer's activations. -/
theorem L9_v65 : W9 m ρ c (Proc.devRef .tc main_v65) = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W9_arr m ρ c 2).trans ((Cert.KernelIdeal.Act3.after_launch (V8 m ρ) c).trans
    ((congrArg₂ Cert.KernelIdeal.Act3.biasRelu (L8_v63 m ρ c) (L8_v64 m ρ c)).trans (Cert.KernelIdeal.StageEq.act3 _ _ _ _ _ _ _ _)))

theorem L9_v5 : W9 m ρ c (Proc.devRef .tc main_v5) = Cert.ReferenceIdeal.Read.val_main_v5 (F := Ideal) (m ((c.tc : Thread nD τ).loc main_arg1)) :=
  (W9_of_ne m ρ c main_v5 (by decide)).trans (L8_v5 m ρ c)

theorem L9_v6 : W9 m ρ c (Proc.devRef .tc main_v6) = Cert.ReferenceIdeal.Read.val_main_v6 (F := Ideal) (m ((c.tc : Thread nD τ).loc main_arg1)) :=
  (W9_of_ne m ρ c main_v6 (by decide)).trans (L8_v6 m ρ c)

theorem L9_v33 : W9 m ρ c (Proc.devRef .tc main_v33) = Cert.ReferenceIdeal.Read.val_main_v33 (F := Ideal) (m ((c.tc : Thread nD τ).loc main_arg1)) (m ((c.tc : Thread nD τ).loc main_arg2)) :=
  (W9_of_ne m ρ c main_v33 (by decide)).trans (L8_v33 m ρ c)

theorem L9_arg7 : W9 m ρ c (Proc.devRef .tc main_arg7) = m ((c.tc : Thread nD τ).loc main_arg7) :=
  (W9_of_ne m ρ c main_arg7 (by decide)).trans (L8_arg7 m ρ c)

theorem L9_arg8 : W9 m ρ c (Proc.devRef .tc main_arg8) = m ((c.tc : Thread nD τ).loc main_arg8) :=
  (W9_of_ne m ρ c main_arg8 (by decide)).trans (L8_arg8 m ρ c)

/-- After the fifth launch: the third linear image. -/
theorem L10_v66 : W10 m ρ c (Proc.devRef .tc main_v66) = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W10_arr m ρ c 2).trans ((Cert.KernelIdeal.Mat4.after_launch (V9 m ρ) c).trans
    ((congrArg₂ Cert.KernelIdeal.Mat4.prod (L9_v65 m ρ c) (L9_arg7 m ρ c)).trans (Cert.KernelIdeal.StageEq.prod4 _ _ _ _ _ _ _ _)))

theorem L10_v5 : W10 m ρ c (Proc.devRef .tc main_v5) = Cert.ReferenceIdeal.Read.val_main_v5 (F := Ideal) (m ((c.tc : Thread nD τ).loc main_arg1)) :=
  (W10_of_ne m ρ c main_v5 (by decide)).trans (L9_v5 m ρ c)

theorem L10_v6 : W10 m ρ c (Proc.devRef .tc main_v6) = Cert.ReferenceIdeal.Read.val_main_v6 (F := Ideal) (m ((c.tc : Thread nD τ).loc main_arg1)) :=
  (W10_of_ne m ρ c main_v6 (by decide)).trans (L9_v6 m ρ c)

theorem L10_v33 : W10 m ρ c (Proc.devRef .tc main_v33) = Cert.ReferenceIdeal.Read.val_main_v33 (F := Ideal) (m ((c.tc : Thread nD τ).loc main_arg1)) (m ((c.tc : Thread nD τ).loc main_arg2)) :=
  (W10_of_ne m ρ c main_v33 (by decide)).trans (L9_v33 m ρ c)

theorem L10_arg8 : W10 m ρ c (Proc.devRef .tc main_arg8) = m ((c.tc : Thread nD τ).loc main_arg8) :=
  (W10_of_ne m ρ c main_arg8 (by decide)).trans (L9_arg8 m ρ c)

/-- After the sixth stretch: the third layer's aggregate. -/
theorem L11_v78 : W11 m ρ c (Proc.devRef .tc main_v78) = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Cert.KernelIdeal.HostGlue.f_v78 (W10 m ρ c) _ _ _ _ _ _ _ _ (L10_v66 m ρ c) (L10_v5 m ρ c) (L10_v6 m ρ c) (L10_v33 m ρ c)

theorem L11_v79 : W11 m ρ c (Proc.devRef .tc main_v79) = shapeCast S1x1 (m ((c.tc : Thread nD τ).loc main_arg8)) shapeCasts_S1_S1x1 :=
  (Cert.KernelIdeal.HostGlue.f_v79 (W10 m ρ c)).trans (congrArg (fun x => shapeCast S1x1 x shapeCasts_S1_S1x1) (L10_arg8 m ρ c))

/-- After the sixth launch the result array holds the reference's last stage of the nine argument arrays. -/
theorem result_eq : W12 m ρ c (Proc.devRef .tc main_v80) = Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W12_arr m ρ c 2).trans ((Cert.KernelIdeal.Act5.after_launch (V11 m ρ) c).trans
    ((congrArg₂ Cert.KernelIdeal.Act5.biasSigmoid (L11_v78 m ρ c) (L11_v79 m ρ c)).trans (Cert.KernelIdeal.StageEq.act5 _ _ _ _ _ _ _ _ _ _)))

end Cert.KernelIdeal.Chain

end
-- ==== Proof.lean ====
/-
  A three-layer graph convolution against its plain reference, over the extended reals.

  Both programs first build, on the host and with the same operations, the edge rows and columns with one self loop per
  node, the edge weights with a one per self loop, the weighted in-degree of every node and from it the symmetric
  normalization of every edge weight. Each of the three layers is a linear map of the node features, a gather of its
  rows along the edge rows scaled by the normalized edge weights and summed per edge column, a bias, and an activation:
  the maximum with zero for the first two layers, zero plus one times the logistic function for the last.
  The kernel program computes each linear map by a launch that multiplies fifty blocks of 2000 rows with the whole
  weight matrix, and each bias and activation by a launch over the same row blocks; the reference computes each as one
  whole-array operation. Row by row a blocked product is the whole product, the blocked bias and activation the whole one,
  and the logistic function is the quotient of one by one plus the exponential of the negated argument on every extended
  real; the host operations between the launches are the reference's own. So the two results are the same function of the
  nine arguments. No step needs the arguments to be finite, and the idealization changed no operation.
-/
import proofs.«150902_j25082609009166_1_alg».proof.Defs
import proofs.«150902_j25082609009166_1_alg».proof.Proof.Gen.Kernel
import proofs.«150902_j25082609009166_1_alg».proof.Proof.Gen.Kernel.Skeleton
import proofs.«150902_j25082609009166_1_alg».proof.Proof.Gen.Kernel.Launch
import proofs.«150902_j25082609009166_1_alg».proof.Proof.Gen.Kernel.Points
import proofs.«150902_j25082609009166_1_alg».proof.Proof.Gen.Kernel.Frame
import proofs.«150902_j25082609009166_1_alg».proof.Proof.Gen.KernelIdeal
import proofs.«150902_j25082609009166_1_alg».proof.Proof.Gen.KernelIdeal.Skeleton
import proofs.«150902_j25082609009166_1_alg».proof.Proof.Gen.KernelIdeal.Launch
import proofs.«150902_j25082609009166_1_alg».proof.Proof.Gen.KernelIdeal.Points
import proofs.«150902_j25082609009166_1_alg».proof.Proof.Gen.KernelIdeal.Frame
import proofs.«150902_j25082609009166_1_alg».proof.Proof.Gen.ReferenceIdeal
import proofs.«150902_j25082609009166_1_alg».proof.Proof.Gen.ReferenceIdeal.Run
import proofs.«150902_j25082609009166_1_alg».proof.Proof.Gen.ReferenceIdeal.Read
import proofs.«150902_j25082609009166_1_alg».proof.Proof.Gen.Pre_finite_inputs
import proofs.«150902_j25082609009166_1_alg».proof.Proof.KernelRun
import proofs.«150902_j25082609009166_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both idealized programs end with the reference's last stage of the
    arguments in their result arrays. -/
theorem algebraic : Cert.algebraic_KernelIdeal_ReferenceIdeal := by
  intro m ρ m' ρ' _ hagree
  refine ⟨fun c => Cert.KernelIdeal.Gen.W12 m ρ c (Proc.devRef .tc Cert.KernelIdeal.main_v80), Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v95_eq, h0, h1, h2, h3, h4, h5, h6, h7, h8]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
